-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x16x128x128 : Shape := ⟨5, ![32, 3, 16, 128, 128]⟩
abbrev S_ : Shape := ⟨0, ![]⟩

class Facts : Prop where
  bcast_S_S32x3x16x128x128 : S_.BroadcastsInDim S32x3x16x128x128 (![] : Fin 0 → Fin S32x3x16x128x128.rank)
  reducesTo_S32x3x16x128x128_S_d0_1_2_3_4 : S32x3x16x128x128.ReducesTo [0, 1, 2, 3, 4] S_
  h_S_ : 0 < S_.numel

variable [Facts]

def fn {F : FTy → Type} [FloatOps F] (main_arg0 : FVec F S32x3x16x128x128 .f32) (main_arg1 : FVec F S32x3x16x128x128 .f32) : IVec S_ 1 :=
  let main_v0 : FVec F S32x3x16x128x128 .f32 := Host.absf main_arg0
  let main_cst : FVec F S_ .f32 := constant S_ .f32 0x7F800000#32
  let main_v1 : FVec F S32x3x16x128x128 .f32 := broadcastInDim S32x3x16x128x128 ![] bcast_S_S32x3x16x128x128 main_cst
  let main_v2 : IVec S32x3x16x128x128 1 := cmpf .olt main_v0 main_v1
  let main_c : IVec S_ 1 := constantI S_ 1 1#1
  let main_v3 : IVec S_ 1 := (fun x v => Host.reduce IntOp.andi x v reducesTo_S32x3x16x128x128_S_d0_1_2_3_4 h_S_) main_v2 main_c
  let main_v4 : FVec F S32x3x16x128x128 .f32 := Host.absf main_arg1
  let main_cst_0 : FVec F S_ .f32 := constant S_ .f32 0x7F800000#32
  let main_v5 : FVec F S32x3x16x128x128 .f32 := broadcastInDim S32x3x16x128x128 ![] bcast_S_S32x3x16x128x128 main_cst_0
  let main_v6 : IVec S32x3x16x128x128 1 := cmpf .olt main_v4 main_v5
  let main_c_1 : IVec S_ 1 := constantI S_ 1 1#1
  let main_v7 : IVec S_ 1 := (fun x v => Host.reduce IntOp.andi x v reducesTo_S32x3x16x128x128_S_d0_1_2_3_4 h_S_) main_v6 main_c_1
  let main_v8 : IVec S_ 1 := andi main_v3 main_v7
  main_v8
-- ==== Kernel.lean ====
abbrev S32x3x16x128x128 : Shape := ⟨5, ![32, 3, 16, 128, 128]⟩
abbrev S1x1 : Shape := ⟨2, ![1, 1]⟩
abbrev S1x3x16x128x128 : Shape := ⟨5, ![1, 3, 16, 128, 128]⟩
abbrev S128x128 : Shape := ⟨2, ![128, 128]⟩
abbrev S1x1x1x128x128 : Shape := ⟨5, ![1, 1, 1, 128, 128]⟩
abbrev S1x128x128 : Shape := ⟨3, ![1, 128, 128]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S32x3x16x128x128, .f32⟩
  | .hbm, ⟨1, _⟩ => ⟨S32x3x16x128x128, .f32⟩
  | .hbm, ⟨2, _⟩ => ⟨S1x1, .f32⟩
  | .hbm, ⟨3, _⟩ => ⟨S_, .f32⟩
  | .local _ .vmem, ⟨0, _⟩ => ⟨S1x3x16x128x128, .f32⟩
  | .local _ .vmem, ⟨1, _⟩ => ⟨S1x3x16x128x128, .f32⟩
  | .local _ .vmem, ⟨2, _⟩ => ⟨S1x3x16x128x128, .f32⟩
  | .local _ .vmem, ⟨3, _⟩ => ⟨S1x3x16x128x128, .f32⟩
  | .local _ .vmem, ⟨4, _⟩ => ⟨S1x1, .f32⟩
  | _, _ => ⟨S32x3x16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c48_i32 : BitVec 32 := 48#32
  let v1 : BitVec 32 := Scalar.addi c0_i32 c48_i32
  let c1_i32 : BitVec 32 := 1#32
  ⟨c0_i32, v1, c1_i32⟩
def k0_off1 (k0_t1 : Fin k0_t1_loop.trips) : Fin 5 → Nat :=
  let c0 : Index := 0#32
  let c0_i32 : BitVec 32 := 0#32
  let c1_i32 : BitVec 32 := 1#32
  let arg4 : BitVec 32 := Scf.iv c0_i32 c1_i32 k0_t1
  let c0_i32_6 : BitVec 32 := 0#32
  let v15 : BitVec 1 := Scalar.cmpi .sgt arg4 c0_i32_6
  let v16 : BitVec 32 := Scalar.extui v15
  let c0_i32_7 : BitVec 32 := 0#32
  let v17 : BitVec 1 := Scalar.cmpi .slt arg4 c0_i32_7
  let v18 : BitVec 32 := Scalar.extui v17
  let v19 : BitVec 32 := Scalar.subi v16 v18
  let c16_i32 : BitVec 32 := 16#32
  let c0_i32_8 : BitVec 32 := 0#32
  let v20 : BitVec 1 := Scalar.cmpi .sgt c16_i32 c0_i32_8
  let v21 : BitVec 32 := Scalar.extui v20
  let c0_i32_9 : BitVec 32 := 0#32
  let v22 : BitVec 1 := Scalar.cmpi .slt c16_i32 c0_i32_9
  let v23 : BitVec 32 := Scalar.extui v22
  let v24 : BitVec 32 := Scalar.subi v21 v23
  let v25 : BitVec 1 := Scalar.cmpi .ne v19 v24
  let v26 : BitVec 32 := Scalar.remsi arg4 c16_i32
  let c0_i32_10 : BitVec 32 := 0#32
  let v27 : BitVec 1 := Scalar.cmpi .ne v26 c0_i32_10
  let v28 : BitVec 1 := Scalar.andi v25 v27
  let v14 : BitVec 32 := Scalar.divsi arg4 c16_i32
  let c1_i32_11 : BitVec 32 := 1#32
  let v29 : BitVec 32 := Scalar.subi v14 c1_i32_11
  let v30 : BitVec 32 := Scalar.select v28 v29 v14
  let v41 : Index := Scalar.indexCast v30
  let c16_i32_12 : BitVec 32 := 16#32
  let c0_i32_13 : BitVec 32 := 0#32
  let v31 : BitVec 1 := Scalar.cmpi .eq c16_i32_12 c0_i32_13
  let c1_i32_14 : BitVec 32 := 1#32
  let v32 : BitVec 32 := Scalar.select v31 c1_i32_14 c16_i32_12
  let v33 : BitVec 32 := Scalar.remsi arg4 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let v42 : Index := Scalar.indexCast v40
  let c0_18 : Index := 0#32
  let c0_19 : Index := 0#32
  ![0, v41.toNat, v42.toNat, 0, 0]
def k0_cond1 (i : grid0.Coords) : BitVec 1 :=
  let arg0 : BitVec 32 := BitVec.ofNat 32 (i 0).val
  let c0_i32_2 : BitVec 32 := 0#32
  let v8 : BitVec 1 := Scalar.cmpi .eq arg0 c0_i32_2
  let v9 : BitVec 32 := Scalar.extui v8
  let c0_i32_3 : BitVec 32 := 0#32
  let v10 : BitVec 1 := Scalar.cmpi .ne v9 c0_i32_3
  v10

def k0_cond2 (i : grid0.Coords) : BitVec 1 :=
  let arg0 : BitVec 32 := BitVec.ofNat 32 (i 0).val
  let c0_i32_4 : BitVec 32 := 0#32
  let v11 : BitVec 1 := Scalar.cmpi .ne arg0 c0_i32_4
  let v12 : BitVec 32 := Scalar.extui v11
  let c0_i32_5 : BitVec 32 := 0#32
  let v13 : BitVec 1 := Scalar.cmpi .ne v12 c0_i32_5
  v13

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  h_S1x1x1x128x128 : 0 < S1x1x1x128x128.numel
  shapeCasts_S1x1x1x128x128_S128x128 : S1x1x1x128x128.ShapeCasts S128x128
  shapeCasts_S128x128_S1x128x128 : S128x128.ShapeCasts S1x128x128
  reduces_S1x128x128_S1 : S1x128x128.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  hrank0 : 0 < grid0.rank
  k0_t1_ok : k0_t1_loop.OK
  k0_off1_inb : ∀ k0_t1 : Fin k0_t1_loop.trips, ∀ a, (k0_off1 k0_t1) a + S1x1x1x128x128.size a ≤ S1x3x16x128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x16x128x128.size a ≤ S32x3x16x128x128.size a
  hwx0_0 : ∀ i : grid0.Coords, EltTy.bits .f32 = 32 ∨ (Rect.block (s := S32x3x16x128x128) S1x3x16x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x16x128x128.size a ≤ S32x3x16x128x128.size a
  hwx0_1 : ∀ i : grid0.Coords, EltTy.bits .f32 = 32 ∨ (Rect.block (s := S32x3x16x128x128) S1x3x16x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1x3x16x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x16x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S32x3x16x128x128 : Shape := ⟨5, ![32, 3, 16, 128, 128]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S32x3x16x128x128, .f32⟩
  | .hbm, ⟨1, _⟩ => ⟨S32x3x16x128x128, .f32⟩
  | .hbm, ⟨2, _⟩ => ⟨S_, .f32⟩
  | .hbm, ⟨3, _⟩ => ⟨S32x3x16x128x128, .f32⟩
  | .hbm, ⟨4, _⟩ => ⟨S32x3x16x128x128, .f32⟩
  | .hbm, ⟨5, _⟩ => ⟨S_, .f32⟩
  | .hbm, ⟨6, _⟩ => ⟨S32x3x16x128x128, .f32⟩
  | .hbm, ⟨7, _⟩ => ⟨S32x3x16x128x128, .f32⟩
  | .hbm, ⟨8, _⟩ => ⟨S32x3x16x128x128, .f32⟩
  | .hbm, ⟨9, _⟩ => ⟨S_, .f32⟩
  | .hbm, ⟨10, _⟩ => ⟨S32x3x16x128x128, .f32⟩
  | .hbm, ⟨11, _⟩ => ⟨S32x3x16x128x128, .f32⟩
  | .hbm, ⟨12, _⟩ => ⟨S32x3x16x128x128, .f32⟩
  | .hbm, ⟨13, _⟩ => ⟨S_, .f32⟩
  | .hbm, ⟨14, _⟩ => ⟨S32x3x16x128x128, .f32⟩
  | .hbm, ⟨15, _⟩ => ⟨S32x3x16x128x128, .f32⟩
  | .hbm, ⟨16, _⟩ => ⟨S32x3x16x128x128, .f32⟩
  | .hbm, ⟨17, _⟩ => ⟨S32x3x16x128x128, .f32⟩
  | .hbm, ⟨18, _⟩ => ⟨S32x3x16x128x128, .f32⟩
  | .hbm, ⟨19, _⟩ => ⟨S32x3x16x128x128, .f32⟩
  | .hbm, ⟨20, _⟩ => ⟨S32x3x16x128x128, .f32⟩
  | .hbm, ⟨21, _⟩ => ⟨S_, .f32⟩
  | .hbm, ⟨22, _⟩ => ⟨S_, .f32⟩
  | _, _ => ⟨S32x3x16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S32x3x16x128x128 : S_.BroadcastsInDim S32x3x16x128x128 (![] : Fin 0 → Fin S32x3x16x128x128.rank)
  reducesTo_S32x3x16x128x128_S_d0_1_2_3_4 : S32x3x16x128x128.ReducesTo [0, 1, 2, 3, 4] S_
  h_S_ : 0 < S_.numel

variable [Facts₀]

class Facts : Prop extends Facts₀ where

variable [Facts]
-- ==== Proof.Kernel.Body.lean ====
/-
  The kernel body at one grid point, run on whole staging buffers, with what it leaves in the output's buffer NAMED.

  At a grid point the body walks the 48 tiles (128 × 128) of its two input blocks in a counted loop, carrying a
  128 × 128 accumulator: trip `k` adds, element by element, the Kullback–Leibler term of the two tiles
  `(k / 16, k mod 16)`. After the loop the accumulator is summed to one number `s` (`k0_pay3`). At the first grid
  point the output's 1 × 1 buffer is set to `s`; at every later point it is read back and `s` is added to it
  (`k0_pay4`).

  `loopVal x0 x1 n` is the accumulator before trip `n` as a function of the two blocks' contents; the loop's
  generated invariant carries the same value as a recursion over the trips' results, and `st_eq_loopVal`
  identifies the two. `kernelRun_A` (first point) and `kernelRun_B` (later points) are the body's two runs.
  Everything here holds at any float instance.
-/
import proofs.«161636_g21354577395725_cont_8to1_745_6_alg».proof.Proof.Gen.Kernel.Loops
import proofs.«161636_g21354577395725_cont_8to1_745_6_alg».proof.Proof.Gen.Kernel.Frame
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The loop's carried value, explicitly -/

/-- The 128×128 tile trip `k` loads from a block whose contents read `x`. -/
def tile (x : Vec F S1x3x16x128x128 .f32) (k : Fin k0_t1_loop.trips) : Vec F S1x1x1x128x128 .f32 :=
  fun j => x ((Rect.unit (s := S1x3x16x128x128) (k0_off1 k) S1x1x1x128x128.size (k0_off1_inb k)).toLoadRect.idx j)

/-- One trip: the carried tile plus the trip's tile of Kullback–Leibler terms. -/
def tripStep (x0 x1 : Vec F S1x3x16x128x128 .f32) (k : Fin k0_t1_loop.trips) (acc : FVec F S128x128 .f32) : FVec F S128x128 .f32 :=
  k0_pay2 acc (k0_pay5 (tile x0 k)) (k0_pay6 (tile x1 k)) (k0_pay7 (tile x0 k)) (k0_pay8 (F := F))

/-- The carried value before trip `n`, from the zero tile. -/
def loopVal (x0 x1 : Vec F S1x3x16x128x128 .f32) : ℕ → FVec F S128x128 .f32
  | 0 => k0_pay1 (F := F)
  | n + 1 => if h : n < k0_t1_loop.trips then tripStep x0 x1 ⟨n, h⟩ (loopVal x0 x1 n) else loopVal x0 x1 n

theorem readAt_unread (arg : Memref sig .tc .vmem S1x3x16x128x128 .f32) (harg : arg.IsWhole) (x : Vec F S1x3x16x128x128 .f32) (k : Fin k0_t1_loop.trips) :
    View.readAt (Elt F) arg.view (Rect.unit (s := S1x3x16x128x128) (k0_off1 k) S1x1x1x128x128.size (k0_off1_inb k)).toLoadRect (harg.unread x) = tile x k := by
  funext j
  rw [View.readAt_apply, harg.read_unread]
  rfl

/-- The generated recursion on the trips' found results is `loopVal`. -/
theorem st_eq_loopVal (𝒱 : Variants) (c : Dev nD) (bd : Option 𝒱.V) (i : grid0.Coords) (arg1 : Memref sig .tc .vmem S1x3x16x128x128 .f32) (harg1 : arg1.IsWhole) (arg2 : Memref sig .tc .vmem S1x3x16x128x128 .f32) (harg2 : arg2.IsWhole) (arg3 : Memref sig .tc .vmem S1x1 .f32) (harg3 : arg3.IsWhole)
    (x0 x1 : Vec F S1x3x16x128x128 .f32) (n : ℕ) :
    st_k0_t1 (F := F) 𝒱 c bd i arg1 harg1 arg2 harg2 arg3 harg3 (harg1.unread x0) (harg2.unread x1) (k0_pay1 (F := F)) n = loopVal x0 x1 n := by
  induction n with
  | zero => rfl
  | succ n ih =>
    rw [st_k0_t1.eq_2, loopVal]
    unfold st_k0_t1Step
    by_cases h : n < k0_t1_loop.trips
    · rw [dif_pos h, dif_pos h, ih]
      unfold tripR_k0_t1 trip_k0_t1
      dsimp only
      unfold trip_k0_t1.sl.r trip_k0_t1.sl.r_1 trip_k0_t1.sl.r_2
      rw [readAt_unread, readAt_unread]
      rfl
    · rw [dif_neg h, dif_neg h, ih]

theorem zero_offsets : (![0, 0] : Fin S1x1.rank → ℕ) = fun _ => 0 := by
  funext a; fin_cases a <;> rfl

set_option maxHeartbeats 1000000 in
/-- The body at the first grid point (the reset branch taken): on whole staging buffers holding `x0`, `x1` and anything,
    it leaves the inputs as they were and the output at the block's sum `k0_pay3 (loopVal x0 x1 trips)`. -/
theorem kernelRun_A (c : Dev nD) (i : grid0.Coords) (arg1 : Memref sig .tc .vmem S1x3x16x128x128 .f32) (harg1 : arg1.IsWhole) (arg2 : Memref sig .tc .vmem S1x3x16x128x128 .f32) (harg2 : arg2.IsWhole) (arg3 : Memref sig .tc .vmem S1x1 .f32) (harg3 : arg3.IsWhole) (hc0 : k0_cond1 i = 1#1) (hc1 : ¬ k0_cond2 i = 1#1)
    (x0 : Vec F S1x3x16x128x128 .f32) (x1 : Vec F S1x3x16x128x128 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ owns (c : Thread nD τ) arg3 fullShare (k0_pay3 (loopVal x0 x1 k0_t1_loop.trips))) -∗ K ⟨⟩))
          ⊢ wp frame (wpE (defs₀ (F := F)) Variants.none c none) E (cc0__kl_block i arg1 harg1 arg2 harg2 arg3 harg3) K := by
    intro E K
    simp only [cc0__kl_block_eq_skeleton]; unfold cc0__kl_block_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    rw [View.read_writes_eq_canon _ _ _ (fun y => ⟨_, List.mem_singleton_self _, View.mem_set_unit_zero zero_offsets inb_S1x1_S1x1_0_0 y⟩),
      View.canon_unit_zero zero_offsets, st_eq_loopVal]

set_option maxHeartbeats 1000000 in
/-- The body at a later grid point (the accumulate branch taken): with the output's buffer holding `xo`, it leaves the
    inputs as they were and the output at `xo` plus the block's sum, `k0_pay4 (loopVal x0 x1 trips) xo`. -/
theorem kernelRun_B (c : Dev nD) (i : grid0.Coords) (arg1 : Memref sig .tc .vmem S1x3x16x128x128 .f32) (harg1 : arg1.IsWhole) (arg2 : Memref sig .tc .vmem S1x3x16x128x128 .f32) (harg2 : arg2.IsWhole) (arg3 : Memref sig .tc .vmem S1x1 .f32) (harg3 : arg3.IsWhole) (hc0 : ¬ k0_cond1 i = 1#1) (hc1 : k0_cond2 i = 1#1)
    (x0 : Vec F S1x3x16x128x128 .f32) (x1 : Vec F S1x3x16x128x128 .f32) (xo : Vec F S1x1 .f32) :
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1
                ∗ owns (c : Thread nD τ) arg3 fullShare (k0_pay4 (loopVal x0 x1 k0_t1_loop.trips) xo)) -∗ K ⟨⟩))
          ⊢ wp frame (wpE (defs₀ (F := F)) Variants.none c none) E (cc0__kl_block i arg1 harg1 arg2 harg2 arg3 harg3) K := by
    intro E K
    simp only [cc0__kl_block_eq_skeleton]; unfold cc0__kl_block_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    rw [View.read_writes_eq_canon _ _ _ (fun y => ⟨_, List.mem_singleton_self _, View.mem_set_unit_zero zero_offsets inb_S1x1_S1x1_0_0 y⟩),
      View.canon_unit_zero zero_offsets, st_eq_loopVal]
    congr 1
    rw [View.readAt_eq_ld, harg3.read_unread, View.ld_unit_zero zero_offsets]

end Cert.Kernel.Body

end
-- ==== Proof.Kernel.Frame.lean ====
/-
  The frame of the program's one region, with what the output array ends holding NAMED.

  The grid has 32 points, one per block of the leading axis. Two input windows are fetched at every point; the 1 × 1
  output window keeps the same block index throughout, so its staging buffer is written back at the last point only and
  carries a running total in between: the first point sets it to the first block's sum, each later point adds its
  block's sum to what the point before left (`outAt`). With that as the proof data's `after`, the body's two runs
  discharge the body obligation at every point, and the library's frame run around the region gives termination, the
  argument arrays unchanged, and the output array at the library's fold of the write-backs. Everything here holds at any
  float instance.
-/
import proofs.«161636_g21354577395725_cont_8to1_745_6_alg».proof.Proof.Kernel.Body

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branches over the grid, and the windows' live points -/

/-- The reset branch is taken at the first grid point only. -/
theorem first_point_iff : ∀ t : Fin cfg0.N, k0_cond1 (grid0.coords t) = 1#1 ↔ t.val = 0 :=
  (by decide +kernel : ∀ t : Fin grid0.N, k0_cond1 (grid0.coords t) = 1#1 ↔ t.val = 0)
/-- The accumulate branch is taken at every later point. -/
theorem later_point_iff : ∀ t : Fin cfg0.N, k0_cond2 (grid0.coords t) = 1#1 ↔ t.val ≠ 0 :=
  (by decide +kernel : ∀ t : Fin grid0.N, k0_cond2 (grid0.coords t) = 1#1 ↔ t.val ≠ 0)
/-- One of the two branches stores into the output at every point: no window is idle anywhere. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-- The same of every setting of the grid's coordinates. -/
theorem live2_all : ∀ i : grid0.Coords, cfg0.idle 2 i = false := by decide +kernel

/-- Each window's current staging buffer at point `t`, as the pipeline passes it to the body. -/
abbrev ms0 (t : Fin cfg0.N) : Memref sig .tc .vmem S1x3x16x128x128 .f32 := win0_0.stage (cfg0.slots t 0)
abbrev ms1 (t : Fin cfg0.N) : Memref sig .tc .vmem S1x3x16x128x128 .f32 := win0_1.stage (cfg0.slots t 1)
abbrev ms2 (t : Fin cfg0.N) : Memref sig .tc .vmem S1x1 .f32 := win0_2.stage (cfg0.slots t 2)

/-! ## What the output's buffer holds after each point -/

/-- The running total: after the first point the first block's sum, after each later point the total so far plus that
    point's block sum. -/
def outAt (c : Dev nD) : (n : ℕ) → n < cfg0.N → Vec F S1x1 .f32
  | 0, hn => k0_pay3 (loopVal (iblk m c 0 ⟨0, hn⟩) (iblk m c 1 ⟨0, hn⟩) k0_t1_loop.trips)
  | n + 1, hn => k0_pay4 (loopVal (iblk m c 0 ⟨n + 1, hn⟩) (iblk m c 1 ⟨n + 1, hn⟩) k0_t1_loop.trips) (outAt c n (Nat.lt_of_succ_lt hn))

theorem outAt_first (c : Dev nD) (t : Fin cfg0.N) (h0 : t.val = 0) :
    outAt m c t.val t.isLt = k0_pay3 (loopVal (iblk m c 0 t) (iblk m c 1 t) k0_t1_loop.trips) := by
  obtain ⟨n, hn⟩ := t
  cases n with
  | zero => rfl
  | succ n => exact absurd h0 (Nat.succ_ne_zero n)

theorem outAt_later (c : Dev nD) (t : Fin cfg0.N) (h0 : t.val ≠ 0) :
    outAt m c t.val t.isLt = k0_pay4 (loopVal (iblk m c 0 t) (iblk m c 1 t) k0_t1_loop.trips)
      (outAt m c (t.val - 1) (Nat.lt_of_le_of_lt (Nat.sub_le _ _) t.isLt)) := by
  obtain ⟨n, hn⟩ := t
  cases n with
  | zero => exact absurd rfl h0
  | succ n => rfl

/-! ## The pipeline's proof data -/

/-- On core `c`: the arrays as the region finds them; after the body at point `t` each input's buffer still at its block
    and the output's at the running total; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t.val t.isLt := by dsimp only [dats]

/-- Each input's buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later point the output's buffer holds the running total the point before left: the output is written back at
    the last point only, so nothing touches the buffer in between. -/
theorem before2_later (c : Dev nD) (t : Fin cfg0.N) (h0 : t.val ≠ 0) (d) :
    (dats m 0 c).before 2 t d = outAt m c (t.val - 1) (Nat.lt_of_le_of_lt (Nat.sub_le _ _) t.isLt) := by
  have hN : t.val < 32 := lt_of_lt_of_eq t.isLt (show cfg0.N = 32 from N_0)
  rw [Dat.before_out_kept _ 2 rfl t h0 (Bool.eq_false_iff.mpr fun h => by have := (flush0_2 _).mp h; dsimp only at this; omega)
    live2_all (fun _ _ => rfl)]
  dsimp only [dats]

/-! ## The body obligation -/

/-- What the body is called with at point `t`: the invariant, what the core owes, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
/-- The body at any point: the inputs' buffers hold their blocks; at the first point the reset run applies, at a later
    one the accumulate run, the output's buffer then holding the running total of the point before. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  by_cases h0 : t.val = 0
  · rw [outAt_first m c t h0]
    iintro ⟨HΦ, Ho, ⟨%d0, H0⟩, ⟨%d1, H1⟩, ⟨%d2, H2⟩⟩
    iapply (kernelRun_A c (grid0.coords t) _ _ _ _ _ _ ((first_point_iff t).mpr h0) (fun h => (later_point_iff t).mp h h0)
      (iblk m c 0 t) (iblk m c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outAt_later m c t h0]
    simp only [before2_later m c t h0]
    iintro ⟨HΦ, Ho, ⟨%d0, H0⟩, ⟨%d1, H1⟩, ⟨%d2, H2⟩⟩
    iapply (kernelRun_B c (grid0.coords t) _ _ _ _ _ _ (fun h => h0 ((first_point_iff t).mp h)) ((later_point_iff t).mpr h0)
      (iblk m c 0 t) (iblk m c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates; every array of the pipeline ends
    at what the library computes from the proof data, and every other buffer at what the host line after the region makes
    of that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim: @main runs and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KernelIdeal.Body.lean ====
/-
  The kernel body at one grid point, run on whole staging buffers, with what it leaves in the output's buffer NAMED.

  At a grid point the body walks the 48 tiles (128 × 128) of its two input blocks in a counted loop, carrying a
  128 × 128 accumulator: trip `k` adds, element by element, the Kullback–Leibler term of the two tiles
  `(k / 16, k mod 16)`. After the loop the accumulator is summed to one number `s` (`k0_pay3`). At the first grid
  point the output's 1 × 1 buffer is set to `s`; at every later point it is read back and `s` is added to it
  (`k0_pay4`).

  `loopVal x0 x1 n` is the accumulator before trip `n` as a function of the two blocks' contents; the loop's
  generated invariant carries the same value as a recursion over the trips' results, and `st_eq_loopVal`
  identifies the two. `kernelRun_A` (first point) and `kernelRun_B` (later points) are the body's two runs.
  Everything here holds at any float instance.
-/
import proofs.«161636_g21354577395725_cont_8to1_745_6_alg».proof.Proof.Gen.KernelIdeal.Loops
import proofs.«161636_g21354577395725_cont_8to1_745_6_alg».proof.Proof.Gen.KernelIdeal.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The loop's carried value, explicitly -/

/-- The 128×128 tile trip `k` loads from a block whose contents read `x`. -/
def tile (x : Vec F S1x3x16x128x128 .f32) (k : Fin k0_t1_loop.trips) : Vec F S1x1x1x128x128 .f32 :=
  fun j => x ((Rect.unit (s := S1x3x16x128x128) (k0_off1 k) S1x1x1x128x128.size (k0_off1_inb k)).toLoadRect.idx j)

/-- One trip: the carried tile plus the trip's tile of Kullback–Leibler terms. -/
def tripStep (x0 x1 : Vec F S1x3x16x128x128 .f32) (k : Fin k0_t1_loop.trips) (acc : FVec F S128x128 .f32) : FVec F S128x128 .f32 :=
  k0_pay2 acc (k0_pay5 (tile x0 k)) (k0_pay6 (tile x1 k)) (k0_pay7 (tile x0 k)) (k0_pay8 (F := F))

/-- The carried value before trip `n`, from the zero tile. -/
def loopVal (x0 x1 : Vec F S1x3x16x128x128 .f32) : ℕ → FVec F S128x128 .f32
  | 0 => k0_pay1 (F := F)
  | n + 1 => if h : n < k0_t1_loop.trips then tripStep x0 x1 ⟨n, h⟩ (loopVal x0 x1 n) else loopVal x0 x1 n

theorem readAt_unread (arg : Memref sig .tc .vmem S1x3x16x128x128 .f32) (harg : arg.IsWhole) (x : Vec F S1x3x16x128x128 .f32) (k : Fin k0_t1_loop.trips) :
    View.readAt (Elt F) arg.view (Rect.unit (s := S1x3x16x128x128) (k0_off1 k) S1x1x1x128x128.size (k0_off1_inb k)).toLoadRect (harg.unread x) = tile x k := by
  funext j
  rw [View.readAt_apply, harg.read_unread]
  rfl

/-- The generated recursion on the trips' found results is `loopVal`. -/
theorem st_eq_loopVal (𝒱 : Variants) (c : Dev nD) (bd : Option 𝒱.V) (i : grid0.Coords) (arg1 : Memref sig .tc .vmem S1x3x16x128x128 .f32) (harg1 : arg1.IsWhole) (arg2 : Memref sig .tc .vmem S1x3x16x128x128 .f32) (harg2 : arg2.IsWhole) (arg3 : Memref sig .tc .vmem S1x1 .f32) (harg3 : arg3.IsWhole)
    (x0 x1 : Vec F S1x3x16x128x128 .f32) (n : ℕ) :
    st_k0_t1 (F := F) 𝒱 c bd i arg1 harg1 arg2 harg2 arg3 harg3 (harg1.unread x0) (harg2.unread x1) (k0_pay1 (F := F)) n = loopVal x0 x1 n := by
  induction n with
  | zero => rfl
  | succ n ih =>
    rw [st_k0_t1.eq_2, loopVal]
    unfold st_k0_t1Step
    by_cases h : n < k0_t1_loop.trips
    · rw [dif_pos h, dif_pos h, ih]
      unfold tripR_k0_t1 trip_k0_t1
      dsimp only
      unfold trip_k0_t1.sl.r trip_k0_t1.sl.r_1 trip_k0_t1.sl.r_2
      rw [readAt_unread, readAt_unread]
      rfl
    · rw [dif_neg h, dif_neg h, ih]

theorem zero_offsets : (![0, 0] : Fin S1x1.rank → ℕ) = fun _ => 0 := by
  funext a; fin_cases a <;> rfl

set_option maxHeartbeats 1000000 in
/-- The body at the first grid point (the reset branch taken): on whole staging buffers holding `x0`, `x1` and anything,
    it leaves the inputs as they were and the output at the block's sum `k0_pay3 (loopVal x0 x1 trips)`. -/
theorem kernelRun_A (c : Dev nD) (i : grid0.Coords) (arg1 : Memref sig .tc .vmem S1x3x16x128x128 .f32) (harg1 : arg1.IsWhole) (arg2 : Memref sig .tc .vmem S1x3x16x128x128 .f32) (harg2 : arg2.IsWhole) (arg3 : Memref sig .tc .vmem S1x1 .f32) (harg3 : arg3.IsWhole) (hc0 : k0_cond1 i = 1#1) (hc1 : ¬ k0_cond2 i = 1#1)
    (x0 : Vec F S1x3x16x128x128 .f32) (x1 : Vec F S1x3x16x128x128 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ owns (c : Thread nD τ) arg3 fullShare (k0_pay3 (loopVal x0 x1 k0_t1_loop.trips))) -∗ K ⟨⟩))
          ⊢ wp frame (wpE (defs₀ (F := F)) Variants.none c none) E (cc0__kl_block i arg1 harg1 arg2 harg2 arg3 harg3) K := by
    intro E K
    simp only [cc0__kl_block_eq_skeleton]; unfold cc0__kl_block_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    rw [View.read_writes_eq_canon _ _ _ (fun y => ⟨_, List.mem_singleton_self _, View.mem_set_unit_zero zero_offsets inb_S1x1_S1x1_0_0 y⟩),
      View.canon_unit_zero zero_offsets, st_eq_loopVal]

set_option maxHeartbeats 1000000 in
/-- The body at a later grid point (the accumulate branch taken): with the output's buffer holding `xo`, it leaves the
    inputs as they were and the output at `xo` plus the block's sum, `k0_pay4 (loopVal x0 x1 trips) xo`. -/
theorem kernelRun_B (c : Dev nD) (i : grid0.Coords) (arg1 : Memref sig .tc .vmem S1x3x16x128x128 .f32) (harg1 : arg1.IsWhole) (arg2 : Memref sig .tc .vmem S1x3x16x128x128 .f32) (harg2 : arg2.IsWhole) (arg3 : Memref sig .tc .vmem S1x1 .f32) (harg3 : arg3.IsWhole) (hc0 : ¬ k0_cond1 i = 1#1) (hc1 : k0_cond2 i = 1#1)
    (x0 : Vec F S1x3x16x128x128 .f32) (x1 : Vec F S1x3x16x128x128 .f32) (xo : Vec F S1x1 .f32) :
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1
                ∗ owns (c : Thread nD τ) arg3 fullShare (k0_pay4 (loopVal x0 x1 k0_t1_loop.trips) xo)) -∗ K ⟨⟩))
          ⊢ wp frame (wpE (defs₀ (F := F)) Variants.none c none) E (cc0__kl_block i arg1 harg1 arg2 harg2 arg3 harg3) K := by
    intro E K
    simp only [cc0__kl_block_eq_skeleton]; unfold cc0__kl_block_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    rw [View.read_writes_eq_canon _ _ _ (fun y => ⟨_, List.mem_singleton_self _, View.mem_set_unit_zero zero_offsets inb_S1x1_S1x1_0_0 y⟩),
      View.canon_unit_zero zero_offsets, st_eq_loopVal]
    congr 1
    rw [View.readAt_eq_ld, harg3.read_unread, View.ld_unit_zero zero_offsets]

end Cert.KernelIdeal.Body

end
-- ==== Proof.KernelIdeal.Frame.lean ====
/-
  The frame of the program's one region, with what the output array ends holding NAMED.

  The grid has 32 points, one per block of the leading axis. Two input windows are fetched at every point; the 1 × 1
  output window keeps the same block index throughout, so its staging buffer is written back at the last point only and
  carries a running total in between: the first point sets it to the first block's sum, each later point adds its
  block's sum to what the point before left (`outAt`). With that as the proof data's `after`, the body's two runs
  discharge the body obligation at every point, and the library's frame run around the region gives termination, the
  argument arrays unchanged, and the output array at the library's fold of the write-backs. Everything here holds at any
  float instance.
-/
import proofs.«161636_g21354577395725_cont_8to1_745_6_alg».proof.Proof.KernelIdeal.Body

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branches over the grid, and the windows' live points -/

/-- The reset branch is taken at the first grid point only. -/
theorem first_point_iff : ∀ t : Fin cfg0.N, k0_cond1 (grid0.coords t) = 1#1 ↔ t.val = 0 :=
  (by decide +kernel : ∀ t : Fin grid0.N, k0_cond1 (grid0.coords t) = 1#1 ↔ t.val = 0)
/-- The accumulate branch is taken at every later point. -/
theorem later_point_iff : ∀ t : Fin cfg0.N, k0_cond2 (grid0.coords t) = 1#1 ↔ t.val ≠ 0 :=
  (by decide +kernel : ∀ t : Fin grid0.N, k0_cond2 (grid0.coords t) = 1#1 ↔ t.val ≠ 0)
/-- One of the two branches stores into the output at every point: no window is idle anywhere. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-- The same of every setting of the grid's coordinates. -/
theorem live2_all : ∀ i : grid0.Coords, cfg0.idle 2 i = false := by decide +kernel

/-- Each window's current staging buffer at point `t`, as the pipeline passes it to the body. -/
abbrev ms0 (t : Fin cfg0.N) : Memref sig .tc .vmem S1x3x16x128x128 .f32 := win0_0.stage (cfg0.slots t 0)
abbrev ms1 (t : Fin cfg0.N) : Memref sig .tc .vmem S1x3x16x128x128 .f32 := win0_1.stage (cfg0.slots t 1)
abbrev ms2 (t : Fin cfg0.N) : Memref sig .tc .vmem S1x1 .f32 := win0_2.stage (cfg0.slots t 2)

/-! ## What the output's buffer holds after each point -/

/-- The running total: after the first point the first block's sum, after each later point the total so far plus that
    point's block sum. -/
def outAt (c : Dev nD) : (n : ℕ) → n < cfg0.N → Vec F S1x1 .f32
  | 0, hn => k0_pay3 (loopVal (iblk m c 0 ⟨0, hn⟩) (iblk m c 1 ⟨0, hn⟩) k0_t1_loop.trips)
  | n + 1, hn => k0_pay4 (loopVal (iblk m c 0 ⟨n + 1, hn⟩) (iblk m c 1 ⟨n + 1, hn⟩) k0_t1_loop.trips) (outAt c n (Nat.lt_of_succ_lt hn))

theorem outAt_first (c : Dev nD) (t : Fin cfg0.N) (h0 : t.val = 0) :
    outAt m c t.val t.isLt = k0_pay3 (loopVal (iblk m c 0 t) (iblk m c 1 t) k0_t1_loop.trips) := by
  obtain ⟨n, hn⟩ := t
  cases n with
  | zero => rfl
  | succ n => exact absurd h0 (Nat.succ_ne_zero n)

theorem outAt_later (c : Dev nD) (t : Fin cfg0.N) (h0 : t.val ≠ 0) :
    outAt m c t.val t.isLt = k0_pay4 (loopVal (iblk m c 0 t) (iblk m c 1 t) k0_t1_loop.trips)
      (outAt m c (t.val - 1) (Nat.lt_of_le_of_lt (Nat.sub_le _ _) t.isLt)) := by
  obtain ⟨n, hn⟩ := t
  cases n with
  | zero => exact absurd rfl h0
  | succ n => rfl

/-! ## The pipeline's proof data -/

/-- On core `c`: the arrays as the region finds them; after the body at point `t` each input's buffer still at its block
    and the output's at the running total; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t.val t.isLt := by dsimp only [dats]

/-- Each input's buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later point the output's buffer holds the running total the point before left: the output is written back at
    the last point only, so nothing touches the buffer in between. -/
theorem before2_later (c : Dev nD) (t : Fin cfg0.N) (h0 : t.val ≠ 0) (d) :
    (dats m 0 c).before 2 t d = outAt m c (t.val - 1) (Nat.lt_of_le_of_lt (Nat.sub_le _ _) t.isLt) := by
  have hN : t.val < 32 := lt_of_lt_of_eq t.isLt (show cfg0.N = 32 from N_0)
  rw [Dat.before_out_kept _ 2 rfl t h0 (Bool.eq_false_iff.mpr fun h => by have := (flush0_2 _).mp h; dsimp only at this; omega)
    live2_all (fun _ _ => rfl)]
  dsimp only [dats]

/-! ## The body obligation -/

/-- What the body is called with at point `t`: the invariant, what the core owes, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
/-- The body at any point: the inputs' buffers hold their blocks; at the first point the reset run applies, at a later
    one the accumulate run, the output's buffer then holding the running total of the point before. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  by_cases h0 : t.val = 0
  · rw [outAt_first m c t h0]
    iintro ⟨HΦ, Ho, ⟨%d0, H0⟩, ⟨%d1, H1⟩, ⟨%d2, H2⟩⟩
    iapply (kernelRun_A c (grid0.coords t) _ _ _ _ _ _ ((first_point_iff t).mpr h0) (fun h => (later_point_iff t).mp h h0)
      (iblk m c 0 t) (iblk m c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outAt_later m c t h0]
    simp only [before2_later m c t h0]
    iintro ⟨HΦ, Ho, ⟨%d0, H0⟩, ⟨%d1, H1⟩, ⟨%d2, H2⟩⟩
    iapply (kernelRun_B c (grid0.coords t) _ _ _ _ _ _ (fun h => h0 ((first_point_iff t).mp h)) ((later_point_iff t).mpr h0)
      (iblk m c 0 t) (iblk m c 1 t) _ Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates; every array of the pipeline ends
    at what the library computes from the proof data, and every other buffer at what the host line after the region makes
    of that. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim: @main runs and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  The quantity both programs compute, stated once over the extended reals.

  For two arrays `a`, `b` of shape [32, 3, 16, 128, 128] the Bernoulli Kullback–Leibler term at one
  element is `x · log (x / y + ε) + (1 − x) · log ((1 − x) / (1 − y) + ε)`, and the result is the sum of
  that term over every element. The constants `1` and `ε` are kept as the binary words both programs
  print (the same word on both sides is never evaluated).
-/
import Idealize.ShloMosaic.PureOps.Ideal
import Idealize.ShloMosaic.Lib.ValueIdx

noncomputable section

namespace Cert.KLSpec

open Idealize.ShloMosaic
open scoped BigOperators

/-- The shape of the two argument arrays. -/
abbrev SA : Shape := ⟨5, ![32, 3, 16, 128, 128]⟩

/-- The word both programs print for `1.0`. -/
def one : EReal := Ideal.ofBits .f32 0x3F800000#32
/-- The word both programs print for `1e-10`. -/
def eps : EReal := Ideal.ofBits .f32 0x2EDBE6FF#32

/-- One element's Kullback–Leibler term. -/
def klTerm (x y : EReal) : EReal :=
  x * Ideal.log (Ideal.div x y + eps) + (one - x) * Ideal.log (Ideal.div (one - x) (one - y) + eps)

/-- The element `(t, k / 16, k mod 16, p, q)`: entry `(p, q)` of tile `k` (of 48 = 3 · 16) of block `t`. -/
def cell (t : Fin 32) (k : Fin 48) (p q : Fin 128) : SA.Idx :=
  ValueIdx.ix5 t ⟨k.val / 16, by have := k.isLt; omega⟩ ⟨k.val % 16, Nat.mod_lt _ (by decide)⟩ p q

/-- The sum of the term over every element of the arrays. -/
def total (a b : SA.Idx → EReal) : EReal := ∑ i : SA.Idx, klTerm (a i) (b i)

end Cert.KLSpec

end
-- ==== Proof.LibBlockSum.lean ====
/-
  Sums over an index range cut into consecutive blocks, in any additive commutative monoid — in particular the
  extended reals, where addition is commutative and associative although it does not cancel.

  * `sum_by_blocks`: a sum over `n * b` indices is the sum over the `n` blocks of the sums over each block's `b`
    indices (the index `j + b * i` is entry `j` of block `i`).
  * `sum_three_parts`: a sum over `a + b + c` indices is the sum of its three consecutive parts.
  * `running_total`: an accumulator started at `z` that adds `g k` at step `k` holds `z + ∑ k < n, g k` after
    `n` steps.
-/
import Mathlib.Algebra.BigOperators.Fin
import Mathlib.Algebra.BigOperators.Group.Finset.Basic

namespace BlockSum

open scoped BigOperators

variable {M : Type*} [AddCommMonoid M]

/-- A sum over `n * b` consecutive indices, block by block: index `j + b * i` is entry `j` of block `i`. -/
theorem sum_by_blocks (n b : ℕ) (f : Fin (n * b) → M) :
    ∑ k, f k = ∑ i : Fin n, ∑ j : Fin b, f (finProdFinEquiv (i, j)) := by
  rw [← Fintype.sum_prod_type']
  exact (Equiv.sum_comp finProdFinEquiv f).symm

/-- The position of entry `j` of block `i`. -/
theorem block_entry_val (n b : ℕ) (i : Fin n) (j : Fin b) :
    (finProdFinEquiv (i, j) : Fin (n * b)).val = j.val + b * i.val := rfl

/-- A sum over `a + b + c` consecutive indices is the sum of its three consecutive parts. -/
theorem sum_three_parts (a b c : ℕ) (f : Fin (a + b + c) → M) :
    ∑ k, f k = ∑ i : Fin a, f (Fin.castAdd c (Fin.castAdd b i))
      + ∑ i : Fin b, f (Fin.castAdd c (Fin.natAdd a i)) + ∑ i : Fin c, f (Fin.natAdd (a + b) i) := by
  rw [Fin.sum_univ_add, Fin.sum_univ_add]

/-- An accumulator started at `z` that adds `g k` at step `k` holds `z` plus the first `n` terms after `n` steps. -/
theorem running_total (z : M) (g : ℕ → M) (acc : ℕ → M) (h0 : acc 0 = z) (hs : ∀ k, acc (k + 1) = acc k + g k) (n : ℕ) :
    acc n = z + ∑ k ∈ Finset.range n, g k := by
  induction n with
  | zero => simp [h0]
  | succ n ih => rw [hs, ih, Finset.sum_range_succ, add_assoc]

end BlockSum
-- ==== Proof.Regroup.lean ====
/-
  Regrouping the sum over every element of a five-axis array, in any additive commutative monoid — in particular the
  extended reals, where addition is commutative and associative although it does not cancel.

  An array of shape [32, 3, 16, 128, 128] is 32 blocks of 48 = 3 · 16 tiles of 128 × 128 entries: element
  `(t, b, c, p, q)` is entry `(p, q)` of tile `c + 16 · b` of block `t`.

  * `sum_idx3`, `sum_idx5`: a sum over a rank-3 or rank-5 index set is the iterated sum over the coordinates.
  * `cell_eq`: the tile `k = c + 16 · b` has `k / 16 = b` and `k mod 16 = c`.
  * `sum_regroup`: the sum over every element is the sum over the blocks, then over the entry positions `(p, q)`,
    then over the 48 tiles.
  * `sum_unit_rows`: a sum over a [1, 128, 128] index set is the double sum over the last two coordinates.
-/
import proofs.«161636_g21354577395725_cont_8to1_745_6_alg».proof.Proof.Spec
import proofs.«161636_g21354577395725_cont_8to1_745_6_alg».proof.Proof.LibBlockSum
import Mathlib.Algebra.BigOperators.Fin
import Mathlib.Algebra.BigOperators.Group.Finset.Basic

noncomputable section

namespace Cert.KLSpec

open Idealize.ShloMosaic
open scoped BigOperators

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun x := ValueIdx.ix3 x.1 x.2.1 x.2.2
  left_inv i := (ValueIdx.eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ValueIdx.ix3 a b c) := by
  rw [← Equiv.sum_comp (idxEquiv3 (n0 := n0) (n1 := n1) (n2 := n2)).symm f]
  simp only [Fintype.sum_prod_type]
  rfl

/-- A rank-5 index set is the product of its five coordinate ranges … -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun x := ValueIdx.ix5 x.1 x.2.1 x.2.2.1 x.2.2.2.1 x.2.2.2.2
  left_inv i := (ValueIdx.eq_ix5 i).symm
  right_inv _ := rfl

/-- … so a sum over it is the five-fold sum over the coordinates. -/
theorem sum_idx5 {M : Type*} [AddCommMonoid M] {n0 n1 n2 n3 n4 : Nat}
    (f : (⟨5, ![n0, n1, n2, n3, n4]⟩ : Shape).Idx → M) :
    ∑ i, f i = ∑ a : Fin n0, ∑ b : Fin n1, ∑ c : Fin n2, ∑ d : Fin n3, ∑ e : Fin n4, f (ValueIdx.ix5 a b c d e) := by
  rw [← Equiv.sum_comp (idxEquiv5 (n0 := n0) (n1 := n1) (n2 := n2) (n3 := n3) (n4 := n4)).symm f]
  simp only [Fintype.sum_prod_type]
  rfl

/-- A four-fold sum with its two outer variables moved inside its two inner ones. -/
theorem sum_rotate4 {M : Type*} [AddCommMonoid M] {α β γ δ : Type*} [Fintype α] [Fintype β] [Fintype γ] [Fintype δ]
    (F : α → β → γ → δ → M) :
    ∑ a, ∑ b, ∑ c, ∑ d, F a b c d = ∑ c, ∑ d, ∑ a, ∑ b, F a b c d :=
  calc ∑ a, ∑ b, ∑ c, ∑ d, F a b c d
      = ∑ a, ∑ c, ∑ b, ∑ d, F a b c d := Finset.sum_congr rfl fun _ _ => Finset.sum_comm
    _ = ∑ c, ∑ a, ∑ b, ∑ d, F a b c d := Finset.sum_comm
    _ = ∑ c, ∑ a, ∑ d, ∑ b, F a b c d :=
        Finset.sum_congr rfl fun _ _ => Finset.sum_congr rfl fun _ _ => Finset.sum_comm
    _ = ∑ c, ∑ d, ∑ a, ∑ b, F a b c d := Finset.sum_congr rfl fun _ _ => Finset.sum_comm

/-- The tile `k = c + 16 · b` (with `c < 16`) has `k / 16 = b` and `k mod 16 = c`: its entry `(p, q)` in block `t` is the
    element `(t, b, c, p, q)`. -/
theorem cell_eq (t : Fin 32) (k : Fin 48) (b : Fin 3) (c : Fin 16) (p q : Fin 128) (h : k.val = c.val + 16 * b.val) :
    cell t k p q = ValueIdx.ix5 t b c p q := by
  have hb : (⟨k.val / 16, by have := k.isLt; omega⟩ : Fin 3) = b :=
    Fin.ext (by have := c.isLt; show k.val / 16 = b.val; omega)
  have hc : (⟨k.val % 16, Nat.mod_lt _ (by decide)⟩ : Fin 16) = c :=
    Fin.ext (by have := c.isLt; show k.val % 16 = c.val; omega)
  unfold cell
  rw [hb, hc]

/-- The sum over every element, regrouped: over the 32 blocks, then the 128 × 128 entry positions, then the 48 tiles. -/
theorem sum_regroup {M : Type*} [AddCommMonoid M] (f : SA.Idx → M) :
    ∑ j : SA.Idx, f j = ∑ t : Fin 32, ∑ p : Fin 128, ∑ q : Fin 128, ∑ k : Fin 48, f (cell t k p q) := by
  rw [sum_idx5 f]
  refine Finset.sum_congr rfl fun t _ => ?_
  have hk : ∀ p q : Fin 128,
      ∑ k : Fin 48, f (cell t k p q) = ∑ b : Fin 3, ∑ c : Fin 16, f (ValueIdx.ix5 t b c p q) := by
    intro p q
    refine (BlockSum.sum_by_blocks 3 16 (fun k : Fin (3 * 16) => f (cell t k p q))).trans ?_
    refine Finset.sum_congr rfl fun b _ => Finset.sum_congr rfl fun c _ => ?_
    rw [cell_eq t _ b c p q (BlockSum.block_entry_val 3 16 b c)]
  simp only [hk]
  exact sum_rotate4 (fun (b : Fin 3) (c : Fin 16) (p q : Fin 128) => f (ValueIdx.ix5 t b c p q))

/-- A sum over a [1, 128, 128] index set is the double sum over its last two coordinates. -/
theorem sum_unit_rows {M : Type*} [AddCommMonoid M] (g : (⟨3, ![1, 128, 128]⟩ : Idealize.ShloMosaic.Shape).Idx → M) :
    ∑ i, g i = ∑ p : Fin 128, ∑ q : Fin 128, g (Idealize.ShloMosaic.ValueIdx.ix3 0 p q) := by
  rw [sum_idx3 g, Fin.sum_univ_one]

end Cert.KLSpec

end
-- ==== Proof.KernelValue.lean ====
/-
  The idealized kernel's result as a sum, read at the extended reals.

  One trip of the body's loop adds, at entry `(p, q)` of the carried 128 × 128 tile, the Kullback–Leibler term of the two
  input blocks' elements `(0, k / 16, k mod 16, p, q)` (`tripStep_apply`); so after the 48 trips the tile holds at `(p, q)` the
  sum of those 48 terms (`loopVal_apply`: an accumulator started at zero is a running total, which needs only that
  addition is associative), and the tile summed over its entries (`tile_sum_apply`) is the block's total
  (`point_total`: point `t`'s input blocks are block `t` of the arguments along the leading axis). The output's buffer
  is set to the first block's total and every later point adds its own, so after point `n` it holds the totals of blocks
  `0 … n` (`outAt_total`), and after the last point the sum over all 32 blocks, which regrouped is the sum of the term over
  every element (`outAt_last`, by `Cert.KLSpec.sum_regroup`: commutativity and associativity only — no finiteness of the
  inputs is needed, the identity holds at infinities too). The one write-back, at the last point, puts that number in the
  1 × 1 output array (`final_out`), which the host line after the region recasts to the scalar result (`result_value`).
-/
import proofs.«161636_g21354577395725_cont_8to1_745_6_alg».proof.Proof.KernelIdeal.Frame
import proofs.«161636_g21354577395725_cont_8to1_745_6_alg».proof.Proof.Spec
import proofs.«161636_g21354577395725_cont_8to1_745_6_alg».proof.Proof.LibBlockSum
import Idealize.ShloMosaic.PureOps.Ideal.Laws
import Idealize.ShloMosaic.Lib.ValueIdx
import Idealize.ShloMosaic.Lib.Pipeline.Value
import Idealize.ShloMosaic.Lib.ValueLayout
import proofs.«161636_g21354577395725_cont_8to1_745_6_alg».proof.Proof.Regroup

set_option maxRecDepth 16384

noncomputable section

namespace Cert.KernelIdeal.Body

open Cert.KernelIdeal Cert.KernelIdeal.Gen Cert.KLSpec
open Idealize.ShloMosaic Idealize.ShloMosaic.TcCoe Idealize.ShloMosaic.ValueIdx
open Idealize.SL.Sem
open scoped BigOperators

/-! ## One trip of the loop at an entry -/

/-- The loop makes 48 trips. -/
theorem trips_eq : k0_t1_loop.trips = 48 := by decide +kernel

/-- Trip `k` reads tile `(k / 16, k mod 16)` of the block. -/
theorem tile_offsets : ∀ k : Fin k0_t1_loop.trips, k0_off1 k = ![0, k.val / 16, k.val % 16, 0, 0] := by decide +kernel

/-- The element of a block (leading extent one) that trip `k`'s tile holds at `(p, q)`. -/
def blockCell (k : Fin k0_t1_loop.trips) (p q : Fin 128) : S1x3x16x128x128.Idx :=
  ix5 (0 : Fin 1) (⟨k.val / 16, by have := k.isLt; have := trips_eq; omega⟩ : Fin 3)
    (⟨k.val % 16, Nat.mod_lt _ (by decide)⟩ : Fin 16) p q

theorem tile_apply {F : FTy → Type} (x : Vec F S1x3x16x128x128 .f32) (k : Fin k0_t1_loop.trips) (p q : Fin 128) :
    tile x k (ix5 (0 : Fin 1) (0 : Fin 1) (0 : Fin 1) p q) = x (blockCell k p q) := by
  unfold tile
  refine congrArg x (funext fun a => Fin.ext ?_)
  rw [LoadRect.idx_apply]
  show k0_off1 k a + 1 * (ix5 (0 : Fin 1) (0 : Fin 1) (0 : Fin 1) p q a).val = (blockCell k p q a).val
  rw [tile_offsets k]
  match a with
  | ⟨0, _⟩ => rfl
  | ⟨1, _⟩ => rfl
  | ⟨2, _⟩ => rfl
  | ⟨3, _⟩ => show 0 + 1 * p.val = p.val; omega
  | ⟨4, _⟩ => show 0 + 1 * q.val = q.val; omega

/-- A tile [1, 1, 1, 128, 128] viewed as [128, 128] reads `(0, 0, 0, p, q)` at `(p, q)`. -/
theorem tile_view_apply {α : Type} (v : S1x1x1x128x128.Idx → α) (h : S1x1x1x128x128.ShapeCasts S128x128) (p q : Fin 128) :
    shapeCast S128x128 v h (ix2 p q) = v (ix5 (0 : Fin 1) (0 : Fin 1) (0 : Fin 1) p q) := by
  refine shapeCast_apply v h (ix2 p q) (ix5 (0 : Fin 1) (0 : Fin 1) (0 : Fin 1) p q) ?_
  rw [Shape.rowMajor_val_five, Shape.rowMajor_val_two]
  show (((0 * 1 + 0) * 1 + 0) * 128 + p.val) * 128 + q.val = p.val * 128 + q.val
  omega

/-- ONE TRIP AT AN ENTRY: trip `k` adds to the carried tile, at `(p, q)`, the Kullback–Leibler term of the two blocks'
    elements `(0, k / 16, k mod 16, p, q)`. -/
theorem tripStep_apply (x0 x1 : Vec Ideal S1x3x16x128x128 .f32) (k : Fin k0_t1_loop.trips) (acc : FVec Ideal S128x128 .f32) (p q : Fin 128) :
    tripStep x0 x1 k acc (ix2 p q) = acc (ix2 p q) + klTerm (x0 (blockCell k p q)) (x1 (blockCell k p q)) := by
  unfold tripStep k0_pay2 k0_pay7 k0_pay8 k0_pay5 k0_pay6
  simp only [addf_apply, mulf_apply, subf_apply, divf_apply, broadcast_apply, log, tile_view_apply, tile_apply]
  rfl

/-! ## The loop's result at an entry, and a block's sum -/

/-- The zero tile the loop starts from. -/
theorem zero_tile_apply (i : S128x128.Idx) : k0_pay1 (F := Ideal) i = 0 := by
  unfold k0_pay1
  simp only [broadcast_apply]
  exact Ideal.ofBits_zero_f32

/-- After the 48 trips the carried tile holds, at `(p, q)`, the sum over the trips of the Kullback–Leibler terms of the
    elements `(0, k / 16, k mod 16, p, q)`: a running total in a commutative monoid. -/
theorem loopVal_apply (x0 x1 : Vec Ideal S1x3x16x128x128 .f32) (p q : Fin 128) :
    loopVal x0 x1 k0_t1_loop.trips (ix2 p q)
      = ∑ k : Fin k0_t1_loop.trips, klTerm (x0 (blockCell k p q)) (x1 (blockCell k p q)) := by
  have h := BlockSum.running_total (0 : EReal)
    (fun k => if h : k < k0_t1_loop.trips then klTerm (x0 (blockCell ⟨k, h⟩ p q)) (x1 (blockCell ⟨k, h⟩ p q)) else 0)
    (fun n => loopVal x0 x1 n (ix2 p q)) (zero_tile_apply _)
    (fun n => by
      show loopVal x0 x1 (n + 1) (ix2 p q) = _
      rw [loopVal]
      by_cases hn : n < k0_t1_loop.trips
      · rw [dif_pos hn, dif_pos hn, tripStep_apply]
      · rw [dif_neg hn, dif_neg hn, add_zero])
    k0_t1_loop.trips
  rw [h, zero_add, Finset.sum_range]
  exact Finset.sum_congr rfl fun k _ => by rw [dif_pos k.isLt]

/-- The one entry of a [1] vector, recast to [1, 1, 1] and splat to [1, 1], is that entry. -/
theorem unit_splat_apply {α : Type} (w : S1.Idx → α) (i : S1x1.Idx) :
    broadcast S1x1 (extractAt ![0, 0, 0] (shapeCast S1x1x1 w shapeCasts_S1_S1x1x1) inpos_S1x1x1_p0_0_0) i = w (ix1 (0 : Fin 1)) := by
  show shapeCast S1x1x1 w shapeCasts_S1_S1x1x1 _ = _
  refine shapeCast_apply w _ _ (ix1 (0 : Fin 1)) ?_
  rw [Shape.rowMajor_val_one, Shape.rowMajor_val_three]
  rfl

/-- The tile summed to one number: every entry of the 128 × 128 tile, added up. -/
theorem tile_sum_apply (v : FVec Ideal S128x128 .f32) (i : S1x1.Idx) :
    k0_pay3 v i = ∑ p : Fin 128, ∑ q : Fin 128, v (ix2 p q) := by
  refine (unit_splat_apply (multiReduction (F := Ideal) .add [1, 2] S1 (shapeCast S1x128x128 v shapeCasts_S128x128_S1x128x128) 0x00000000#32
    reduces_S1x128x128_S1 (.inl rfl) rfl) i).trans ?_
  refine (Ideal.multiReduction_add_total (shapeCast S1x128x128 v shapeCasts_S128x128_S1x128x128) 0x00000000#32 reduces_S1x128x128_S1
    (fun b => by match b with | ⟨0, _⟩ => rfl) (.inl rfl) rfl (ix1 (0 : Fin 1))).trans ?_
  rw [sum_unit_rows]
  exact Finset.sum_congr rfl fun p _ => Finset.sum_congr rfl fun q _ => shapeCast_ab_1ab_apply v _ 0 p q

/-- The accumulate step at the output's one entry: what the buffer held plus the tile's sum. -/
theorem accumulate_apply (v : FVec Ideal S128x128 .f32) (xo : Vec Ideal S1x1 .f32) (i : S1x1.Idx) :
    k0_pay4 v xo i = xo i + k0_pay3 v i := by
  unfold k0_pay4
  rw [shapeCast_self]
  rfl

/-! ## A point's block, the running total, and the array the region leaves -/

section Total
variable (m : (ℓ : Loc nD τ sig) → Buf (Elt Ideal) ℓ)

/-- The two input windows' block index at point `t` is `(t, 0, 0, 0, 0)`. -/
theorem in0_index : ∀ t : Fin cfg0.N, win0_0.index t 0 = t.val ∧ win0_0.index t 1 = 0 ∧ win0_0.index t 2 = 0 ∧ win0_0.index t 3 = 0 ∧ win0_0.index t 4 = 0 :=
  (by decide +kernel : ∀ t : Fin grid0.N, win0_0.index t 0 = t.val ∧ win0_0.index t 1 = 0 ∧ win0_0.index t 2 = 0 ∧ win0_0.index t 3 = 0 ∧ win0_0.index t 4 = 0)
theorem in1_index : ∀ t : Fin cfg0.N, win0_1.index t 0 = t.val ∧ win0_1.index t 1 = 0 ∧ win0_1.index t 2 = 0 ∧ win0_1.index t 3 = 0 ∧ win0_1.index t 4 = 0 :=
  (by decide +kernel : ∀ t : Fin grid0.N, win0_1.index t 0 = t.val ∧ win0_1.index t 1 = 0 ∧ win0_1.index t 2 = 0 ∧ win0_1.index t 3 = 0 ∧ win0_1.index t 4 = 0)

/-- The first argument array, and the second, as the program is launched with them on core `c`. -/
abbrev argA (c : Dev nD) : SA.Idx → EReal := m ((c.tc : Thread nD τ).loc main_arg0)
abbrev argB (c : Dev nD) : SA.Idx → EReal := m ((c.tc : Thread nD τ).loc main_arg1)

/-- Point `t`'s block of the first argument is its block `t` along the leading axis. -/
theorem in0_block_apply (c : Dev nD) (t : Fin cfg0.N) (y : S1x3x16x128x128.Idx) (j : SA.Idx)
    (h0 : (j 0).val = t.val) (h1 : (j 1).val = (y 1).val) (h2 : (j 2).val = (y 2).val) (h3 : (j 3).val = (y 3).val) (h4 : (j 4).val = (y 4).val) :
    (iblk m c 0 t : Vec Ideal S1x3x16x128x128 .f32) y = argA m c j := by
  obtain ⟨i0, i1, i2, i3, i4⟩ := in0_index t
  have hy0 : (y 0).val < 1 := (y 0).isLt
  unfold iblk
  rw [View.read_apply]
  show V m c main_arg0 _ = m (c.tc.loc main_arg0) _
  unfold V
  congr 1
  funext a
  apply Fin.ext
  match a with
  | ⟨0, _⟩ => show win0_0.index t 0 * 1 + 1 * (y 0).val = (j 0).val; rw [i0, h0]; omega
  | ⟨1, _⟩ => show win0_0.index t 1 * 3 + 1 * (y 1).val = (j 1).val; rw [i1, h1]; omega
  | ⟨2, _⟩ => show win0_0.index t 2 * 16 + 1 * (y 2).val = (j 2).val; rw [i2, h2]; omega
  | ⟨3, _⟩ => show win0_0.index t 3 * 128 + 1 * (y 3).val = (j 3).val; rw [i3, h3]; omega
  | ⟨4, _⟩ => show win0_0.index t 4 * 128 + 1 * (y 4).val = (j 4).val; rw [i4, h4]; omega

/-- Likewise the second argument's. -/
theorem in1_block_apply (c : Dev nD) (t : Fin cfg0.N) (y : S1x3x16x128x128.Idx) (j : SA.Idx)
    (h0 : (j 0).val = t.val) (h1 : (j 1).val = (y 1).val) (h2 : (j 2).val = (y 2).val) (h3 : (j 3).val = (y 3).val) (h4 : (j 4).val = (y 4).val) :
    (iblk m c 1 t : Vec Ideal S1x3x16x128x128 .f32) y = argB m c j := by
  obtain ⟨i0, i1, i2, i3, i4⟩ := in1_index t
  have hy0 : (y 0).val < 1 := (y 0).isLt
  unfold iblk
  rw [View.read_apply]
  show V m c main_arg1 _ = m (c.tc.loc main_arg1) _
  unfold V
  congr 1
  funext a
  apply Fin.ext
  match a with
  | ⟨0, _⟩ => show win0_1.index t 0 * 1 + 1 * (y 0).val = (j 0).val; rw [i0, h0]; omega
  | ⟨1, _⟩ => show win0_1.index t 1 * 3 + 1 * (y 1).val = (j 1).val; rw [i1, h1]; omega
  | ⟨2, _⟩ => show win0_1.index t 2 * 16 + 1 * (y 2).val = (j 2).val; rw [i2, h2]; omega
  | ⟨3, _⟩ => show win0_1.index t 3 * 128 + 1 * (y 3).val = (j 3).val; rw [i3, h3]; omega
  | ⟨4, _⟩ => show win0_1.index t 4 * 128 + 1 * (y 4).val = (j 4).val; rw [i4, h4]; omega

/-- Entry `(p, q)` of tile `k` of point `t`'s block, as an element of the whole array. -/
def pointCell (t : Fin cfg0.N) (k : Fin k0_t1_loop.trips) (p q : Fin 128) : SA.Idx :=
  cell ⟨t.val, lt_of_lt_of_eq t.isLt N_0⟩ ⟨k.val, lt_of_lt_of_eq k.isLt trips_eq⟩ p q

/-- The sum of the Kullback–Leibler terms over block `t`: over the entry positions, then the 48 tiles. -/
def blockTotal (a b : SA.Idx → EReal) (t : Fin 32) : EReal :=
  ∑ p : Fin 128, ∑ q : Fin 128, ∑ k : Fin 48, klTerm (a (cell t k p q)) (b (cell t k p q))

/-- WHAT A POINT ADDS: the tile the loop leaves at point `t`, summed, is block `t`'s total. -/
theorem point_total (c : Dev nD) (t : Fin cfg0.N) (i : S1x1.Idx) :
    k0_pay3 (loopVal (iblk m c 0 t) (iblk m c 1 t) k0_t1_loop.trips) i
      = blockTotal (argA m c) (argB m c) ⟨t.val, lt_of_lt_of_eq t.isLt N_0⟩ := by
  rw [tile_sum_apply]
  unfold blockTotal
  refine Finset.sum_congr rfl fun p _ => Finset.sum_congr rfl fun q _ => ?_
  rw [loopVal_apply]
  refine (Fintype.sum_equiv (finCongr trips_eq) _ _ fun k => ?_)
  rw [in0_block_apply m c t (blockCell k p q) (pointCell t k p q) rfl rfl rfl rfl rfl,
    in1_block_apply m c t (blockCell k p q) (pointCell t k p q) rfl rfl rfl rfl rfl]
  rfl

/-- The block totals as a sequence over the naturals (zero past the grid). -/
def blockSeq (c : Dev nD) (s : ℕ) : EReal :=
  if h : s < 32 then blockTotal (argA m c) (argB m c) ⟨s, h⟩ else 0

/-- THE RUNNING TOTAL: after point `n` the output's buffer holds the totals of blocks `0 … n`. -/
theorem outAt_total (c : Dev nD) (i : S1x1.Idx) : ∀ (n : ℕ) (hn : n < cfg0.N),
    outAt m c n hn i = ∑ s ∈ Finset.range (n + 1), blockSeq m c s
  | 0, hn => by
    rw [outAt, point_total, Finset.sum_range_one]
    unfold blockSeq
    rw [dif_pos (by decide)]
  | n + 1, hn => by
    have h32 : n + 1 < 32 := lt_of_lt_of_eq hn N_0
    rw [outAt, accumulate_apply, outAt_total c i n (Nat.lt_of_succ_lt hn), point_total, Finset.sum_range_succ _ (n + 1)]
    congr 1
    unfold blockSeq
    rw [dif_pos h32]

/-- After the last point it holds the sum of the term over every element of the arrays. -/
theorem outAt_last (c : Dev nD) (i : S1x1.Idx) (hn : 31 < cfg0.N) :
    outAt m c 31 hn i = total (argA m c) (argB m c) := by
  rw [outAt_total, total, sum_regroup, Finset.sum_range]
  refine Finset.sum_congr rfl fun t _ => ?_
  unfold blockSeq blockTotal
  rw [dif_pos t.isLt]

end Total

/-! ## The array the region leaves, and the program's result -/

section Final
variable (m : (ℓ : Loc nD τ sig) → Buf (Elt Ideal) ℓ)

/-- The last grid point. -/
def lastPoint : Fin cfg0.N := ⟨31, lt_of_lt_of_eq (by decide : 31 < 32) N_0.symm⟩

/-- What the one write-back writes: the running total after the last point. -/
def resultArr (c : Dev nD) : Buf (Elt Ideal) ((c.tc : Thread nD τ).loc main_v0) := outAt m c 31 lastPoint.isLt

/-- The output window is written back at the last point only, and its block there is the whole 1 × 1 array. -/
theorem flushed_last (c : Dev nD) (t : Fin cfg0.N) (hf : (cfg0.win 2).flush t = true) :
    (dats m 0 c).flushed 2 t = ((cfg0.win 2).blk t).view.read (Elt Ideal) (resultArr m c) := by
  have hN : cfg0.N = 32 := N_0
  have h1 : t.val = 31 := by have := (flush0_2 t).mp hf; have := t.isLt; omega
  obtain rfl : t = lastPoint := Fin.ext h1
  show (cfg0.win 2).cut (grid0.coords lastPoint) ((dats m 0 c).after 2 lastPoint) = _
  rw [after2]
  have hz' : (fun a => win0_2.index lastPoint a * main_v0.ty.shape.size a) = fun _ => 0 :=
    funext fun a => by fin_cases a <;> decide +kernel
  exact (Memref.read_access_unit_zero (Elt Ideal) main_v0 hz' (fun a => by rw [congrFun hz' a]; simp) (resultArr m c)).symm

/-- So the output array ends holding the running total after the last point. -/
theorem final_out (c : Dev nD) : (dats m 0 c).arrAt 2 cfg0.N = resultArr m c :=
  (dats m 0 c).arrAt_eq_of_cover 2 (resultArr m c) (flushed_last m c) fun i =>
    ⟨lastPoint, (flush0_2 lastPoint).mpr rfl, by
      show i ∈ ((View.whole main_v0).slice (win0_2.rect lastPoint)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index lastPoint 0 * win0_2.size 0 ≤ (i 0 : Nat) ∧ (i 0 : Nat) < win0_2.index lastPoint 0 * win0_2.size 0 + win0_2.xsize (grid0.coords lastPoint) 0
        rw [show win0_2.index lastPoint 0 * win0_2.size 0 = 0 from by decide +kernel, show win0_2.xsize (grid0.coords lastPoint) 0 = 1 from by decide +kernel]; omega
      | ⟨1, _⟩ =>
        show win0_2.index lastPoint 1 * win0_2.size 1 ≤ (i 1 : Nat) ∧ (i 1 : Nat) < win0_2.index lastPoint 1 * win0_2.size 1 + win0_2.xsize (grid0.coords lastPoint) 1
        rw [show win0_2.index lastPoint 1 * win0_2.size 1 = 0 from by decide +kernel, show win0_2.xsize (grid0.coords lastPoint) 1 = 1 from by decide +kernel]; omega⟩

/-- THE RESULT: the host line after the region recasts the 1 × 1 array to a scalar, which is therefore the sum of the
    Kullback–Leibler term over every element of the two argument arrays. -/
theorem result_value (c : Dev nD) :
    Pipeline.afterTail₀ cfgs (dats m) 0 (V0 m) [hostOps1] c main_v1 = fun _ => total (argA m c) (argB m c) := by
  unfold Pipeline.afterTail₀
  show StableHlo.after hostOps1 _ (Proc.devRef .tc main_v1) = _
  after_results
  funext i
  show shapeCast S_ (Pipeline.withArrays spec0 c (V0 m c) (fun w => (dats m 0 c).arrAt w cfg0.N) (Proc.devRef .tc main_v0))
    shapeCasts_S1x1_S_ i = _
  rw [show Pipeline.withArrays spec0 c (V0 m c) (fun w => (dats m 0 c).arrAt w cfg0.N) (Proc.devRef .tc main_v0)
      = (dats m 0 c).arrAt 2 cfg0.N from Pipeline.withArrays_arr spec0 launch0.win.arr_inj c _ _ 2, final_out]
  refine (shapeCast_apply (resultArr m c) shapeCasts_S1x1_S_ i (ix2 (0 : Fin 1) (0 : Fin 1)) ?_).trans
    (outAt_last m c _ lastPoint.isLt)
  show (S1x1.rowMajor (ix2 (0 : Fin 1) (0 : Fin 1))).val = (S_.rowMajor i).val
  rw [Shape.rowMajor_val_two]
  exact (Shape.rowMajorPi_zero S_.size i).symm

end Final

/-! ## The idealized kernel's run, with its result named -/

section Run
variable (m : (ℓ : Loc nD τ sig) → Buf (Elt Ideal) ℓ) (ρ : Dev nD → PrngReg)

/-- Every weakly fair execution of the idealized kernel terminates with its result at the sum of the Kullback–Leibler
    term over every element of the argument arrays, and the arguments unchanged. -/
theorem run_value : θ_run defs (onTc (τ := τ) (main (F := Ideal))) ⟨m, fun _ => 0, ρ⟩ (fun r => ∀ c : Dev nD,
      r.2.mem ((c.tc : Thread nD τ).loc main_v1) = (fun _ => total (argA m c) (argB m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v1 (by decide)).trans (result_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Run

end Cert.KernelIdeal.Body

end
-- ==== Proof.RefTotal.lean ====
/-
  The reference program's result is the Kullback–Leibler total.

  The reference program computes, at every element of its two argument arrays, the term
  `x · log (x / y + ε) + (1 − x) · log ((1 − x) / (1 − y) + ε)` and then adds the terms of all elements to the
  initial value `0`. Read at the ideal values (the extended reals), each of its operations is the extended reals'
  own operation, so the value it returns is the sum of the term over every element: `Cert.KLSpec.total`.
  The constants `1` and `ε` stay the binary words the program prints; the same word stands on both sides.
-/
import proofs.«161636_g21354577395725_cont_8to1_745_6_alg».proof.Proof.Gen.ReferenceIdeal.Read
import proofs.«161636_g21354577395725_cont_8to1_745_6_alg».proof.Proof.Spec
import Idealize.ShloMosaic.PureOps.Ideal.Laws
import Idealize.ShloMosaic.Lib.ValueIdx

noncomputable section

namespace Cert.ReferenceIdeal.RefTotal

open Idealize.ShloMosaic
open scoped BigOperators

/-- One element of the array the reference program sums: the Kullback–Leibler term of the two arguments there. -/
theorem ref_term (a b : (⟨Cert.ReferenceIdeal.S32x3x16x128x128, .f32⟩ : Idealize.ShloMosaic.BufTy).Contents (Idealize.ShloMosaic.Elt Idealize.ShloMosaic.Ideal))
    (j : Cert.ReferenceIdeal.S32x3x16x128x128.Idx) :
    Cert.ReferenceIdeal.Read.val_main_v14 (F := Idealize.ShloMosaic.Ideal) a b j = Cert.KLSpec.klTerm (a j) (b j) := by
  rw [Read.val_main_v14_apply, Read.val_main_v11_apply, Read.val_main_v13_apply, Read.val_main_v10_apply,
    Read.val_main_v12_apply, Read.val_main_v6_apply, Read.val_main_v9_apply, Read.val_main_v4_apply,
    Read.val_main_v7_apply, Read.val_main_v5_apply, Read.val_main_v8_apply, Read.val_main_v1_apply,
    Read.val_main_v3_apply, Read.val_main_v0_apply, Read.val_main_v2_apply, Read.val_main_cst_apply,
    Read.val_main_cst_0_apply, Read.val_main_cst_1_apply, Read.val_main_cst_2_apply]
  simp only [Ideal.addf_def, Ideal.subf_def, Ideal.mulf_def, Ideal.hostDivf_def, Ideal.hostUnary_log_def,
    Ideal.ofBits_def]
  rfl

/-- The reference program's result, at its one index, is the sum of the term over every element. -/
theorem ref_total (a b : (⟨Cert.ReferenceIdeal.S32x3x16x128x128, .f32⟩ : Idealize.ShloMosaic.BufTy).Contents (Idealize.ShloMosaic.Elt Idealize.ShloMosaic.Ideal))
    (i : Cert.ReferenceIdeal.S_.Idx) :
    Cert.ReferenceIdeal.Read.val_main_v15 (F := Idealize.ShloMosaic.Ideal) a b i = Cert.KLSpec.total a b := by
  rw [Read.val_main_v15_apply, Read.val_main_cst_3_apply, Ideal.ofBits_def, Ideal.ofBits_zero_f32, zero_add]
  exact Finset.sum_congr rfl fun j _ => ref_term a b j

end Cert.ReferenceIdeal.RefTotal

end
-- ==== Proof.lean ====
/-
  The certificate's claims, assembled.

  The kernel computes the Bernoulli Kullback–Leibler divergence of two arrays of shape [32, 3, 16, 128, 128], summed to
  one number: at every element the term `x · log (x / y + ε) + (1 − x) · log ((1 − x) / (1 − y) + ε)`. It walks the
  leading axis block by block (32 grid points); within a block a counted loop of 48 trips adds the 48 tiles of terms
  into one 128 × 128 accumulator, which is then summed to a number; the first point stores that number, every later
  point adds its number to the stored one. The reference computes the term at every element and sums all of them at
  once. Over the extended reals addition is commutative and associative (though it does not cancel), and these two
  groupings of one finite sum are equal for ALL contents of the arrays, infinities included: finiteness of the inputs is
  never used.

  * The three frames: the kernel's (at the word level and at the ideal values — one proof, generic in the float
    instance, stated twice) from the body's two runs (the first point; a later point) and the library's frame run around
    the region; the reference's from its generated run.
  * `preserves`: the ideal pass rewrote nothing, the conjunct is `True`.
  * `algebraic`: the idealized kernel's result is `Cert.KLSpec.total` of its arguments (the running total after the last
    point, block totals regrouped into one sum), and so is the reference's (its final reduce read as a sum).
-/
import proofs.«161636_g21354577395725_cont_8to1_745_6_alg».proof.Defs
import proofs.«161636_g21354577395725_cont_8to1_745_6_alg».proof.Proof.Gen.Kernel
import proofs.«161636_g21354577395725_cont_8to1_745_6_alg».proof.Proof.Gen.KernelIdeal
import proofs.«161636_g21354577395725_cont_8to1_745_6_alg».proof.Proof.Gen.ReferenceIdeal
import proofs.«161636_g21354577395725_cont_8to1_745_6_alg».proof.Proof.Gen.Pre_finite_inputs
import proofs.«161636_g21354577395725_cont_8to1_745_6_alg».proof.Proof.Gen.ReferenceIdeal.Run
import proofs.«161636_g21354577395725_cont_8to1_745_6_alg».proof.Proof.Gen.ReferenceIdeal.Read
import proofs.«161636_g21354577395725_cont_8to1_745_6_alg».proof.Proof.Kernel.Frame
import proofs.«161636_g21354577395725_cont_8to1_745_6_alg».proof.Proof.KernelIdeal.Frame
import proofs.«161636_g21354577395725_cont_8to1_745_6_alg».proof.Proof.KernelValue
import proofs.«161636_g21354577395725_cont_8to1_745_6_alg».proof.Proof.RefTotal
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Body.frame m ρ

/-- So does the kernel read at the ideal values. -/
theorem frame_kernelIdeal : Cert.frame_KernelIdeal := fun m ρ _ => Cert.KernelIdeal.Body.frame m ρ

/-- So does the reference: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the same number: the sum of the Kullback–Leibler
    term over every element. -/
theorem algebraic : Cert.algebraic_KernelIdeal_ReferenceIdeal := by
  intro m ρ m' ρ' _ hagree
  refine ⟨fun c => fun _ => Cert.KLSpec.total (Cert.KernelIdeal.Body.argA m c) (Cert.KernelIdeal.Body.argB m c),
    Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v15_eq _ _).trans (funext fun i => ?_)
  rw [Cert.ReferenceIdeal.RefTotal.ref_total, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
